-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000x32 : Shape := ⟨2, ![1600000, 32]⟩
abbrev S1600000 : Shape := ⟨1, ![1600000]⟩
abbrev S32x32 : Shape := ⟨2, ![32, 32]⟩
abbrev S32 : Shape := ⟨1, ![32]⟩
abbrev S_ : Shape := ⟨0, ![]⟩

class Facts : Prop where
  bcast_S_S1600000x32 : S_.BroadcastsInDim S1600000x32 (![] : Fin 0 → Fin S1600000x32.rank)
  reducesTo_S1600000x32_S_d0_1 : S1600000x32.ReducesTo [0, 1] S_
  h_S_ : 0 < S_.numel
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_

variable [Facts]

def fn {F : FTy → Type} [FloatOps F] (main_arg0 : FVec F S1600000x32 .f32) (main_arg1 : IVec S1600000 32) (main_arg2 : IVec S1600000 32) (main_arg3 : FVec F S32x32 .f32) (main_arg4 : FVec F S32 .f32) : IVec S_ 1 :=
  let main_v0 : FVec F S1600000x32 .f32 := Host.absf main_arg0
  let main_cst : FVec F S_ .f32 := constant S_ .f32 0x7F800000#32
  let main_v1 : FVec F S1600000x32 .f32 := broadcastInDim S1600000x32 ![] bcast_S_S1600000x32 main_cst
  let main_v2 : IVec S1600000x32 1 := cmpf .olt main_v0 main_v1
  let main_c : IVec S_ 1 := constantI S_ 1 1#1
  let main_v3 : IVec S_ 1 := (fun x v => Host.reduce IntOp.andi x v reducesTo_S1600000x32_S_d0_1 h_S_) main_v2 main_c
  let main_v4 : FVec F S32x32 .f32 := Host.absf main_arg3
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Kernel.lean ====
abbrev S1600000x32 : Shape := ⟨2, ![1600000, 32]⟩
abbrev S1600000 : Shape := ⟨1, ![1600000]⟩
abbrev S32x32 : Shape := ⟨2, ![32, 32]⟩
abbrev S32 : Shape := ⟨1, ![32]⟩
abbrev S_ : Shape := ⟨0, ![]⟩
abbrev S50000 : Shape := ⟨1, ![50000]⟩
abbrev S1600000x1 : Shape := ⟨2, ![1600000, 1]⟩
abbrev S50000x32 : Shape := ⟨2, ![50000, 32]⟩
abbrev S50000x1 : Shape := ⟨2, ![50000, 1]⟩
abbrev S5000x32 : Shape := ⟨2, ![5000, 32]⟩
abbrev S1x32 : Shape := ⟨2, ![1, 32]⟩

abbrev nBuf : Space → Nat
  | .hbm => 57
  | .vmem => 5
  | .smem => 0
  | _ => 0

abbrev bufTy : (tb : Table) → Fin (tcTables nBuf tb) → BufTy
  | .hbm, ⟨0, _⟩ => ⟨S1600000x32, .f32⟩
  | .hbm, ⟨1, _⟩ => ⟨S1600000, .i32⟩
  | .hbm, ⟨2, _⟩ => ⟨S1600000, .i32⟩
  | .hbm, ⟨3, _⟩ => ⟨S32x32, .f32⟩
  | .hbm, ⟨4, _⟩ => ⟨S32, .f32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S50000, .f32⟩
  | .hbm, ⟨9, _⟩ => ⟨S1600000x1, .i32⟩
  | .hbm, ⟨10, _⟩ => ⟨S50000, .f32⟩
  | .hbm, ⟨11, _⟩ => ⟨S_, .f32⟩
  | .hbm, ⟨12, _⟩ => ⟨S50000x32, .f32⟩
  | .hbm, ⟨13, _⟩ => ⟨S1600000x1, .i32⟩
  | .hbm, ⟨14, _⟩ => ⟨S50000x32, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S50000x1, .f32⟩
  | .hbm, ⟨19, _⟩ => ⟨S50000x32, .f32⟩
  | .hbm, ⟨20, _⟩ => ⟨S50000x32, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x32, .f32⟩
  | .hbm, ⟨30, _⟩ => ⟨S_, .f32⟩
  | .hbm, ⟨31, _⟩ => ⟨S50000x32, .f32⟩
  | .hbm, ⟨32, _⟩ => ⟨S1600000x1, .i32⟩
  | .hbm, ⟨33, _⟩ => ⟨S50000x32, .f32⟩
  | .hbm, ⟨34, _⟩ => ⟨S50000x32, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x32, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x32, .f32⟩
  | .hbm, ⟨53, _⟩ => ⟨S1600000x32, .f32⟩
  | .hbm, ⟨54, _⟩ => ⟨S1x32, .f32⟩
  | .hbm, ⟨55, _⟩ => ⟨S1600000x32, .f32⟩
  | .hbm, ⟨56, _⟩ => ⟨S1600000x32, .f32⟩
  | .local _ .vmem, ⟨0, _⟩ => ⟨S5000x32, .f32⟩
  | .local _ .vmem, ⟨1, _⟩ => ⟨S5000x32, .f32⟩
  | .local _ .vmem, ⟨2, _⟩ => ⟨S32x32, .f32⟩
  | .local _ .vmem, ⟨3, _⟩ => ⟨S5000x32, .f32⟩
  | .local _ .vmem, ⟨4, _⟩ => ⟨S5000x32, .f32⟩
  | _, _ => ⟨S1600000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_5 : Ref sig .tc := ⟨.hbm, 35, rfl⟩
abbrev main_v23 : Ref sig .tc := ⟨.hbm, 36, rfl⟩
abbrev main_v24 : Ref sig .tc := ⟨.hbm, 37, rfl⟩
abbrev main_c_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_7 : Ref sig .tc := ⟨.hbm, 44, rfl⟩
abbrev main_v30 : Ref sig .tc := ⟨.hbm, 45, rfl⟩
abbrev main_v31 : Ref sig .tc := ⟨.hbm, 46, rfl⟩
abbrev main_c_8 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S_S50000x32 : S_.BroadcastsInDim S50000x32 (![] : Fin 0 → Fin S50000x32.rank)
  bcast_S50000_S50000x1_0 : S50000.BroadcastsInDim S50000x1 (![0] : Fin 1 → Fin S50000x1.rank)
  bcast_S50000x1_S50000x32_0_1 : S50000x1.BroadcastsInDim S50000x32 (![0, 1] : Fin 2 → Fin S50000x32.rank)
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  bitsLt_bf16_f32 : FTy.bits .bf16 < FTy.bits .f32
  inb_S32x32_S32x32_0_0 : ∀ a, (![0, 0] : Fin 2 → Nat) a + S32x32.size a ≤ S32x32.size a
  h_S32x32 : 0 < S32x32.numel
  transposes_S32x32_p1_0_S32x32 : S32x32.Transposes [1, 0] S32x32
  bcast_S32_S1x32_1 : S32.BroadcastsInDim S1x32 (![1] : Fin 1 → Fin S1x32.rank)
  bcast_S1x32_S1600000x32_0_1 : S1x32.BroadcastsInDim S1600000x32 (![0, 1] : Fin 2 → Fin S1600000x32.rank)
  scatter_S50000_S1600000x1_S1600000_n_0_0_1_wf : ScatterDims.WF S50000 S1600000x1 S1600000 [] [0] [0] 1
  scatter_S50000x32_S1600000x1_S1600000x32_1_0_0_1_wf : ScatterDims.WF S50000x32 S1600000x1 S1600000x32 [1] [0] [0] 1
  gather_S50000x32_S1600000x1_S1600000x32_1_0_n_n_0_1_132_wf : GatherDims.WF S50000x32 S1600000x1 S1600000x32 [1] [0] [] [0] [] 1 ![1, 32]
  dot_S5000x32_S32x32_S5000x32_1_0_0_1_n_n_wf : DotDims.WF S5000x32 S32x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S50000x32.size a
  hwx0_0 : ∀ i : grid0.Coords, EltTy.bits .f32 = 32 ∨ (Rect.block (s := S50000x32) S5000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x32.size a ≤ S32x32.size a
  hwx0_1 : ∀ i : grid0.Coords, EltTy.bits .f32 = 32 ∨ (Rect.block (s := S32x32) S32x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S50000x32.size a
  hwx0_2 : ∀ i : grid0.Coords, EltTy.bits .f32 = 32 ∨ (Rect.block (s := S50000x32) S5000x32.size (cc0_transform_2 i) (hinb0_2 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def scatter_S50000x32_S1600000x1_S1600000x32_1_0_0_1 : ScatterDims S50000x32 S1600000x1 S1600000x32 where
  updateWindowDims := [1]
  insertedWindowDims := [0]
  scatterDimsToOperandDims := [0]
  indexVectorDim := 1
  wf := scatter_S50000x32_S1600000x1_S1600000x32_1_0_0_1_wf
def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf

abbrev win0_0 : Pipeline.Window sig grid0 :=
  Pipeline.Window.ofSpec (Memref.whole main_v21) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S32x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22) S5000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1600000x32 : Shape := ⟨2, ![1600000, 32]⟩
abbrev S1600000 : Shape := ⟨1, ![1600000]⟩
abbrev S32x32 : Shape := ⟨2, ![32, 32]⟩
abbrev S32 : Shape := ⟨1, ![32]⟩
abbrev S_ : Shape := ⟨0, ![]⟩
abbrev S50000 : Shape := ⟨1, ![50000]⟩
abbrev S1600000x1 : Shape := ⟨2, ![1600000, 1]⟩
abbrev S50000x32 : Shape := ⟨2, ![50000, 32]⟩
abbrev S50000x1 : Shape := ⟨2, ![50000, 1]⟩
abbrev S1x32 : Shape := ⟨2, ![1, 32]⟩

abbrev nBuf : Space → Nat
  | .hbm => 61
  | .vmem => 0
  | .smem => 0
  | _ => 0

abbrev bufTy : (tb : Table) → Fin (tcTables nBuf tb) → BufTy
  | .hbm, ⟨0, _⟩ => ⟨S1600000x32, .f32⟩
  | .hbm, ⟨1, _⟩ => ⟨S1600000, .i32⟩
  | .hbm, ⟨2, _⟩ => ⟨S1600000, .i32⟩
  | .hbm, ⟨3, _⟩ => ⟨S32x32, .f32⟩
  | .hbm, ⟨4, _⟩ => ⟨S32, .f32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S50000, .f32⟩
  | .hbm, ⟨9, _⟩ => ⟨S1600000x1, .i32⟩
  | .hbm, ⟨10, _⟩ => ⟨S50000, .f32⟩
  | .hbm, ⟨11, _⟩ => ⟨S_, .f32⟩
  | .hbm, ⟨12, _⟩ => ⟨S50000x32, .f32⟩
  | .hbm, ⟨13, _⟩ => ⟨S1600000x1, .i32⟩
  | .hbm, ⟨14, _⟩ => ⟨S50000x32, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S50000x1, .f32⟩
  | .hbm, ⟨19, _⟩ => ⟨S50000x32, .f32⟩
  | .hbm, ⟨20, _⟩ => ⟨S50000x32, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x32, .f32⟩
  | .hbm, ⟨30, _⟩ => ⟨S_, .f32⟩
  | .hbm, ⟨31, _⟩ => ⟨S50000x32, .f32⟩
  | .hbm, ⟨32, _⟩ => ⟨S1600000x1, .i32⟩
  | .hbm, ⟨33, _⟩ => ⟨S50000x32, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x32, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x32, .f32⟩
  | .hbm, ⟨52, _⟩ => ⟨S1600000x32, .f32⟩
  | .hbm, ⟨53, _⟩ => ⟨S_, .f32⟩
  | .hbm, ⟨54, _⟩ => ⟨S1600000x32, .f32⟩
  | .hbm, ⟨55, _⟩ => ⟨S1600000x32, .f32⟩
  | .hbm, ⟨56, _⟩ => ⟨S32x32, .f32⟩
  | .hbm, ⟨57, _⟩ => ⟨S1600000x32, .f32⟩
  | .hbm, ⟨58, _⟩ => ⟨S1x32, .f32⟩
  | .hbm, ⟨59, _⟩ => ⟨S1600000x32, .f32⟩
  | .hbm, ⟨60, _⟩ => ⟨S1600000x32, .f32⟩
  | _, _ => ⟨S1600000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_5 : Ref sig .tc := ⟨.hbm, 34, rfl⟩
abbrev main_v22 : Ref sig .tc := ⟨.hbm, 35, rfl⟩
abbrev main_v23 : Ref sig .tc := ⟨.hbm, 36, rfl⟩
abbrev main_c_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_7 : Ref sig .tc := ⟨.hbm, 43, rfl⟩
abbrev main_v29 : Ref sig .tc := ⟨.hbm, 44, rfl⟩
abbrev main_v30 : Ref sig .tc := ⟨.hbm, 45, rfl⟩
abbrev main_c_8 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S_S50000x32 : S_.BroadcastsInDim S50000x32 (![] : Fin 0 → Fin S50000x32.rank)
  bcast_S50000_S50000x1_0 : S50000.BroadcastsInDim S50000x1 (![0] : Fin 1 → Fin S50000x1.rank)
  bcast_S50000x1_S50000x32_0_1 : S50000x1.BroadcastsInDim S50000x32 (![0, 1] : Fin 2 → Fin S50000x32.rank)
  bcast_S_S1600000x32 : S_.BroadcastsInDim S1600000x32 (![] : Fin 0 → Fin S1600000x32.rank)
  transposes_S32x32_S32x32_1_0 : S32x32.Transposes [1, 0] S32x32
  bcast_S32_S1x32_1 : S32.BroadcastsInDim S1x32 (![1] : Fin 1 → Fin S1x32.rank)
  bcast_S1x32_S1600000x32_0_1 : S1x32.BroadcastsInDim S1600000x32 (![0, 1] : Fin 2 → Fin S1600000x32.rank)
  scatter_S50000_S1600000x1_S1600000_n_0_0_1_wf : ScatterDims.WF S50000 S1600000x1 S1600000 [] [0] [0] 1
  scatter_S50000x32_S1600000x1_S1600000x32_1_0_0_1_wf : ScatterDims.WF S50000x32 S1600000x1 S1600000x32 [1] [0] [0] 1
  gather_S50000x32_S1600000x1_S1600000x32_1_0_n_n_0_1_132_wf : GatherDims.WF S50000x32 S1600000x1 S1600000x32 [1] [0] [] [0] [] 1 ![1, 32]
  dot_S1600000x32_S32x32_S1600000x32_1_0_0_1_n_n_wf : DotDims.WF S1600000x32 S32x32 S1600000x32 [1] [0] [0] [1] [] []

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def scatter_S50000x32_S1600000x1_S1600000x32_1_0_0_1 : ScatterDims S50000x32 S1600000x1 S1600000x32 where
  updateWindowDims := [1]
  insertedWindowDims := [0]
  scatterDimsToOperandDims := [0]
  indexVectorDim := 1
  wf := scatter_S50000x32_S1600000x1_S1600000x32_1_0_0_1_wf
def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf
def dot_S1600000x32_S32x32_S1600000x32_1_0_0_1_n_n : DotDims S1600000x32 S32x32 S1600000x32 where
  lhsContracting := [1]
  rhsContracting := [0]
  lhsNonContracting := [0]
  rhsNonContracting := [1]
  lhsBatch := []
  rhsBatch := []
  wf := dot_S1600000x32_S32x32_S1600000x32_1_0_0_1_n_n_wf

class Facts : Prop extends Facts₀ where

variable [Facts]
-- ==== Proof.LibPlainDot.lean ====
/-
  A plain matrix product read at an index.  For dimension numbers that contract the left operand's second axis with
  the right operand's first and have no batch axes, the contraction  sum over k of l[(i, k)] * r[(k, j)]  ranges over
  the contraction shape's indices; that shape has one axis of extent K, so the sum is one over k < K.  The four
  coordinate facts (which coordinate of the output index or of the contraction index each operand index carries)
  are hypotheses: for a printed record each is decided by unfolding the record.
-/
import Idealize.ShloMosaic.Lib.ValueIdx
import Idealize.ShloMosaic.PureOps.Ideal.Laws

noncomputable section

namespace Cert.LibPlainDot

open Idealize.ShloMosaic Idealize.ShloMosaic.ValueIdx

/-- The contraction sum of a plain [M,K] x [K,N] product at output index i is the sum over k < K of
    l (i 0, k) * r (k, i 1). -/
theorem sum_plain {M K N : Nat} (d : DotDims (⟨2, ![M, K]⟩ : Shape) (⟨2, ![K, N]⟩ : Shape) (⟨2, ![M, N]⟩ : Shape))
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (l : (⟨2, ![M, K]⟩ : Shape).Idx → EReal) (r : (⟨2, ![K, N]⟩ : Shape).Idx → EReal) (p : Fin M) (c : Fin N) :
    ∑ k : d.contr.Idx, l (d.lhsIdx (ix2 p c) k) * r (d.rhsIdx (ix2 p c) k) = ∑ k : Fin K, l (ix2 p k) * r (ix2 k c) := by
  rw [← Equiv.sum_comp (contrEquiv1 d K hr hs).symm]
  refine Finset.sum_congr rfl fun k _ => ?_
  have hk := contrEquiv1_symm_val d K hr hs k
  have el : d.lhsIdx (ix2 p c) ((contrEquiv1 d K hr hs).symm k) = ix2 p k := funext fun a => Fin.ext (by
    match a with
    | ⟨0, _⟩ => exact hl0 _ _
    | ⟨1, _⟩ => exact (hl1 _ _).trans hk)
  have er : d.rhsIdx (ix2 p c) ((contrEquiv1 d K hr hs).symm k) = ix2 k c := funext fun a => Fin.ext (by
    match a with
    | ⟨0, _⟩ => exact (hr0 _ _).trans hk
    | ⟨1, _⟩ => exact hr1 _ _)
  rw [el, er]

end Cert.LibPlainDot

end
-- ==== Proof.Spec.lean ====
/-
  The mathematics of the edge projection, with no program in sight.

  A node table h : [50000, 32], weights W : [32, 32] and a bias b : [32] are given, and two maps rs, rd from the
  1 600 000 edges to node rows (the source and the destination of each edge).  One arrangement first projects the
  whole node table, proj h W (n, j) = 1/2 * sum_k h(n, k) * W(j, k), and then reads the projected rows of the two
  endpoints and adds them and the bias.  The other first halves the sum of the two endpoint rows and then projects
  that edge row.  The projection is linear, so the two agree wherever the table and the weights hold real numbers:
  on the extended reals the distributive law that moves 1/2 and W(j, k) across the sum of two rows fails only at an
  infinity, and a finite sum of reals is a real.
-/
import Idealize.ShloMosaic.Lib.ValueIdx
import Idealize.ShloMosaic.PureOps.Ideal.Laws

noncomputable section

namespace Cert.Spec

open Idealize.ShloMosaic Idealize.ShloMosaic.ValueIdx

abbrev TblS : Shape := ⟨2, ![50000, 32]⟩
abbrev WS : Shape := ⟨2, ![32, 32]⟩
abbrev EdgeS : Shape := ⟨2, ![1600000, 32]⟩
abbrev BiasS : Shape := ⟨1, ![32]⟩

/-- One half, as the f32 pattern both programs carry. -/
abbrev half : EReal := Ideal.ofBits .f32 0x3F000000#32

/-- The pattern denotes the real number 1/2. -/
theorem half_eq : half = (((1 : ℝ) / 2 : ℝ) : EReal) := by
  simp [half, Ideal.ofBits, Ideal.ieee, -EReal.coe_mul]; norm_num

/-- An extended real that is a real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.one : IsReal 1 := ⟨1, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases le_total x y with h | h
  · rw [max_eq_right h]; exact hy
  · rw [max_eq_left h]; exact hx

/-- The coercion of a finite sum of reals is the sum of the coercions. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A finite sum of reals is a real. -/
theorem IsReal.sum {ι : Type*} (s : Finset ι) (f : ι → EReal) (hf : ∀ k ∈ s, IsReal (f k)) : IsReal (∑ k ∈ s, f k) := by
  classical
  induction s using Finset.induction_on with
  | empty => simpa using IsReal.zero
  | insert a s ha ih =>
    rw [Finset.sum_insert ha]
    exact (hf a (Finset.mem_insert_self a s)).add (ih fun k hk => hf k (Finset.mem_insert_of_mem hk))

/-- The quotient by a real that is not zero is a real. -/
theorem IsReal.div {x y : EReal} (hx : IsReal x) {b : ℝ} (hy : y = (b : EReal)) (hb : b ≠ 0) : IsReal (Ideal.div x y) := by
  obtain ⟨a, rfl⟩ := hx
  subst hy
  rw [Ideal.div_coe hb]
  exact (IsReal.coe a).mul (IsReal.coe _)

/-- The projected node table: entry (n, j) is half the product of row n of the table with row j of the weights. -/
def proj (h : TblS.Idx → EReal) (W : WS.Idx → EReal) : TblS.Idx → EReal :=
  fun n => half * ∑ k : Fin 32, h (ix2 (n 0) k) * W (ix2 (n 1) k)

/-- Project the table once, then read the two endpoint rows of each edge, add them, add the bias. -/
def viaTable (h : TblS.Idx → EReal) (W : WS.Idx → EReal) (b : BiasS.Idx → EReal) (rs rd : Fin 1600000 → Fin 50000) :
    EdgeS.Idx → EReal :=
  fun i => proj h W (ix2 (rs (i 0)) (i 1)) + proj h W (ix2 (rd (i 0)) (i 1)) + b (ix1 (i 1))

/-- Halve the sum of the two endpoint rows of each edge, then project that row, add the bias. -/
def viaEdges (h : TblS.Idx → EReal) (W : WS.Idx → EReal) (b : BiasS.Idx → EReal) (rs rd : Fin 1600000 → Fin 50000) :
    EdgeS.Idx → EReal :=
  fun i => (∑ k : Fin 32, (half * (h (ix2 (rs (i 0)) k) + h (ix2 (rd (i 0)) k))) * W (ix2 (i 1) k)) + b (ix1 (i 1))

/-- Linearity of the projection: over a real table and real weights the two arrangements agree. The bias may be any
    extended real: it is added last on both sides. -/
theorem viaTable_eq_viaEdges (h : TblS.Idx → EReal) (W : WS.Idx → EReal) (b : BiasS.Idx → EReal)
    (rs rd : Fin 1600000 → Fin 50000) (hh : ∀ n, IsReal (h n)) (hW : ∀ n, IsReal (W n)) :
    viaTable h W b rs rd = viaEdges h W b rs rd := by
  funext i
  unfold viaTable viaEdges proj
  congr 1
  choose hr hhr using hh
  choose wr hwr using hW
  simp only [hhr, hwr, half_eq]
  simp only [← EReal.coe_mul, ← EReal.coe_add, ← coe_sum]
  congr 1
  rw [← mul_add, ← Finset.sum_add_distrib, Finset.mul_sum]
  refine Finset.sum_congr rfl fun k _ => ?_
  ring

end Cert.Spec

end
-- ==== Proof.KernelBlock.lean ====
/-
  The kernel's region: what the node-projection body leaves in the projected table.

  The grid has ten points; point t sees rows 5000 t .. 5000 t + 4999 of the node table (all 32 columns), the whole
  weight matrix, and writes the same rows of the output.  The body multiplies the row block by the transposed weights
  into a zero accumulator and halves the product, so the entry it stores at block position (p, q) is
  1/2 * sum_k x(p, k) * w(q, k): the changes of float format are the identity on the extended reals, and the
  transposed weights at (k, q) are the weights at (q, k).  Read through the blocks' positions in their arrays this is
  the projection of the specification at row 5000 t + p, and the ten row blocks tile the table.
-/
import proofs.«129537_j27986006901490_2_alg».proof.Proof.Gen.KernelIdeal.Frame
import proofs.«129537_j27986006901490_2_alg».proof.Proof.LibPlainDot
import proofs.«129537_j27986006901490_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Block

open Cert.KernelIdeal Cert.KernelIdeal.Gen Idealize.ShloMosaic Idealize.ShloMosaic.TcCoe Idealize.SL.Sem
open Idealize.ShloMosaic.ValueIdx Idealize.ShloMosaic.Pipeline

/-! ## The body's stored value at a position of the block -/

theorem dot_lhs0 (i : S5000x32.Idx) (q : dot_S5000x32_S32x32_S5000x32_1_0_0_1_n_n.contr.Idx) :
    (dot_S5000x32_S32x32_S5000x32_1_0_0_1_n_n.lhsIdx i q 0).val = (i 0).val := by
  unfold DotDims.lhsIdx
  rw [dif_neg (show ¬(0 : Fin S5000x32.rank) ∈ dot_S5000x32_S32x32_S5000x32_1_0_0_1_n_n.lhsBatch by decide), dif_pos (show (0 : Fin S5000x32.rank) ∈ dot_S5000x32_S32x32_S5000x32_1_0_0_1_n_n.lhsNonContracting by decide)]
  rfl
theorem dot_lhs1 (i : S5000x32.Idx) (q : dot_S5000x32_S32x32_S5000x32_1_0_0_1_n_n.contr.Idx) :
    (dot_S5000x32_S32x32_S5000x32_1_0_0_1_n_n.lhsIdx i q 1).val = (q ⟨0, by decide⟩).val :=
  dot_S5000x32_S32x32_S5000x32_1_0_0_1_n_n.lhsIdx_val_of_single rfl i q
theorem dot_rhs0 (i : S5000x32.Idx) (q : dot_S5000x32_S32x32_S5000x32_1_0_0_1_n_n.contr.Idx) :
    (dot_S5000x32_S32x32_S5000x32_1_0_0_1_n_n.rhsIdx i q 0).val = (q ⟨0, by decide⟩).val :=
  dot_S5000x32_S32x32_S5000x32_1_0_0_1_n_n.rhsIdx_val_of_single rfl i q
theorem dot_rhs1 (i : S5000x32.Idx) (q : dot_S5000x32_S32x32_S5000x32_1_0_0_1_n_n.contr.Idx) :
    (dot_S5000x32_S32x32_S5000x32_1_0_0_1_n_n.rhsIdx i q 1).val = (i 1).val := by
  unfold DotDims.rhsIdx
  rw [dif_neg (show ¬(1 : Fin S32x32.rank) ∈ dot_S5000x32_S32x32_S5000x32_1_0_0_1_n_n.rhsBatch by decide), dif_pos (show (1 : Fin S32x32.rank) ∈ dot_S5000x32_S32x32_S5000x32_1_0_0_1_n_n.rhsNonContracting by decide)]
  rfl

/-- The transposed weights at (k, q) are the weights at (q, k). -/
theorem transpose_w (w : S32x32.Idx → EReal) (k q : Fin 32) :
    transpose S32x32 [1, 0] w transposes_S32x32_p1_0_S32x32 (ix2 k q) = w (ix2 q k) :=
  transpose_apply [1, 0] w transposes_S32x32_p1_0_S32x32 (ix2 k q) (ix2 q k) (fun b => match b with
    | ⟨0, _⟩ => rfl
    | ⟨1, _⟩ => rfl)

/-- The stored entry at block position (p, q): half the product of row p of the row block with row q of the weights. -/
theorem stored_apply (x : Vec Ideal S5000x32 .f32) (w : Vec Ideal S32x32 .f32) (p : Fin 5000) (q : Fin 32) :
    k0_pay1 (F := Ideal) x w (ix2 p q) = Cert.Spec.half * ∑ k : Fin 32, x (ix2 p k) * w (ix2 q k) := by
  unfold k0_pay1
  show Ideal.ofBits .f32 0x3F000000#32 * FloatOps.matmul dot_S5000x32_S32x32_S5000x32_1_0_0_1_n_n none
      (truncf .bf16 (shapeCast S5000x32 x shapeCasts_S5000x32_S5000x32) bitsLt_bf16_f32)
      (transpose S32x32 [1, 0] (truncf .bf16 w bitsLt_bf16_f32) transposes_S32x32_p1_0_S32x32)
      (constant S5000x32 .f32 0x00000000#32) (ix2 p q) = _
  rw [Ideal.matmul_constant_zero_apply,
    Cert.LibPlainDot.sum_plain dot_S5000x32_S32x32_S5000x32_1_0_0_1_n_n rfl rfl dot_lhs0 dot_lhs1 dot_rhs0 dot_rhs1]
  refine congrArg (Cert.Spec.half * ·) (Finset.sum_congr rfl fun k _ => ?_)
  rw [shapeCast_self]
  exact congrArg (x (ix2 p k) * ·) (transpose_w w k q)

/-- The same entry read where the blocks sit in their arrays: if row p of the row block is row (n 0) of the node
    table h and row q of the weight block is row (n 1) of the weights W, the stored entry at (p, q) is the projection
    of h by W at n. -/
theorem stored_eq_proj (x : Vec Ideal S5000x32 .f32) (w : Vec Ideal S32x32 .f32)
    (h : Cert.Spec.TblS.Idx → EReal) (W : Cert.Spec.WS.Idx → EReal) (j : S5000x32.Idx) (p : Fin 5000) (q : Fin 32)
    (hj : j = ix2 p q) (n : Cert.Spec.TblS.Idx)
    (hx : ∀ k : Fin 32, x (ix2 p k) = h (ix2 (n 0) k))
    (hw : ∀ k : Fin 32, w (ix2 q k) = W (ix2 (n 1) k)) :
    k0_pay1 (F := Ideal) x w j = Cert.Spec.proj h W n := by
  subst hj
  rw [stored_apply]
  unfold Cert.Spec.proj
  refine congrArg (Cert.Spec.half * ·) (Finset.sum_congr rfl fun k _ => ?_)
  rw [hx, hw]

end Cert.KernelIdeal.Block

end
-- ==== Proof.KernelCover.lean ====
/-
  Where the ten row blocks of the projected table sit.  The printed index maps put the row-block windows at block
  row t and block column 0 and the weights' window at block (0, 0); an index of the table lies in point t's block iff
  its row is in 5000 t .. 5000 t + 4999, so row r lies in the block of point r / 5000 and the blocks tile the table.
-/
import proofs.«129537_j27986006901490_2_alg».proof.Proof.Gen.KernelIdeal.Frame
import Idealize.ShloMosaic.Lib.Pipeline.Value
import Idealize.ShloMosaic.Lib.ValueIdx

set_option maxRecDepth 16384

noncomputable section

namespace Cert.KernelIdeal.Block

open Cert.KernelIdeal Cert.KernelIdeal.Gen Idealize.ShloMosaic Idealize.ShloMosaic.TcCoe Idealize.SL.Sem
open Idealize.ShloMosaic.ValueIdx Idealize.ShloMosaic.Pipeline

/-- The printed index maps, decided over the ten grid points: the row-block windows sit at block row t and block
    column 0, the weights' window at block (0, 0). -/
theorem block_positions : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- An index of the table is in point t's block iff each coordinate is in the block's range on its axis. -/
theorem mem_block (t : Fin cfg0.N) (i : S50000x32.Idx) :
    i ∈ ((cfg0.win 2).blk t).view.set ↔ ∀ a : Fin 2, win0_2.index t a * S5000x32.size a ≤ (i a).val ∧ (i a).val < win0_2.index t a * S5000x32.size a + S5000x32.size a := by
  show i ∈ ((View.whole main_v22).slice (win0_2.rect t)).set ↔ _
  rw [View.set_slice_whole, Rect.mem_set_unit]
  exact Iff.rfl

/-- The ten row blocks tile the table: row r lies in the block of point r / 5000. -/
theorem blocks_cover (i : S50000x32.Idx) :
    ∃ t : Fin cfg0.N, (cfg0.win 2).flush t = true ∧ i ∈ ((cfg0.win 2).blk t).view.set := by
  have hi0 : (i 0).val < 50000 := (i 0).isLt
  have hi1 : (i 1).val < 32 := (i 1).isLt
  have hN : (i 0).val / 5000 < cfg0.N := by show _ < grid0.N; rw [N_0]; omega
  obtain ⟨e0, e1, e2, e3, e4, e5⟩ := block_positions ⟨(i 0).val / 5000, hN⟩
  refine ⟨⟨(i 0).val / 5000, hN⟩, flush0_2 _, ?_⟩
  rw [mem_block]
  intro a
  match a with
  | ⟨0, _⟩ =>
    show win0_2.index ⟨(i 0).val / 5000, hN⟩ (0 : Fin 2) * 5000 ≤ (i 0).val ∧ (i 0).val < win0_2.index ⟨(i 0).val / 5000, hN⟩ (0 : Fin 2) * 5000 + 5000
    rw [e4]; show (i 0).val / 5000 * 5000 ≤ (i 0).val ∧ (i 0).val < (i 0).val / 5000 * 5000 + 5000
    omega
  | ⟨1, _⟩ =>
    show win0_2.index ⟨(i 0).val / 5000, hN⟩ (1 : Fin 2) * 32 ≤ (i 1).val ∧ (i 1).val < win0_2.index ⟨(i 0).val / 5000, hN⟩ (1 : Fin 2) * 32 + 32
    rw [e5]; omega

end Cert.KernelIdeal.Block

end
-- ==== Proof.KernelTable.lean ====
/-
  The projected table after the region.  Point t's body finds row block t of the node table and the whole weight
  matrix in its staging buffers; what it writes back is therefore block t of the projection of the node table (as the
  region finds it) by the weights, and since the ten blocks tile the table, the table ends holding that projection.
  The facts about where a block sits are stated for arbitrary array contents: they say nothing about what the host
  operations before the region computed.
-/
import proofs.«129537_j27986006901490_2_alg».proof.Proof.KernelBlock
import proofs.«129537_j27986006901490_2_alg».proof.Proof.KernelCover
import Idealize.ShloMosaic.Lib.Pipeline.Value
import Idealize.ShloMosaic.Lib.ValueIdx

set_option maxRecDepth 16384

noncomputable section

namespace Cert.KernelIdeal.Block

open Cert.KernelIdeal Cert.KernelIdeal.Gen Idealize.ShloMosaic Idealize.ShloMosaic.TcCoe Idealize.SL.Sem
open Idealize.ShloMosaic.ValueIdx Idealize.ShloMosaic.Pipeline

theorem zero_offsets : (![0, 0] : Fin 2 → Nat) = fun _ => 0 := funext fun a => by fin_cases a <;> rfl

/-! ## Where the blocks sit, for any contents -/

/-- Row (j 0) of point t's row block of an array A is the row of A that the output block's position j has in the
    table: the block row is the same for the input window and the output window, and the block spans all 32 columns. -/
theorem row_block_entry (A : Cert.Spec.TblS.Idx → EReal) (t : Fin cfg0.N) (j : S5000x32.Idx) (k : Fin 32) :
    ((cfg0.win 0).blk t).view.read (Elt Ideal) A (ix2 (j 0) k) = A (ix2 ((((cfg0.win 2).blk t).view.emb j) 0) k) := by
  obtain ⟨e0, e1, e2, e3, e4, e5⟩ := block_positions t
  show A (((cfg0.win 0).blk t).view.emb (ix2 (j 0) k)) = A (ix2 ((((cfg0.win 2).blk t).view.emb j) 0) k)
  refine congrArg A (funext fun a => Fin.ext ?_)
  match a with
  | ⟨0, _⟩ => show win0_0.index t (0 : Fin 2) * 5000 + 1 * (j 0).val = win0_2.index t (0 : Fin 2) * 5000 + 1 * (j 0).val; omega
  | ⟨1, _⟩ => show win0_0.index t (1 : Fin 2) * 32 + 1 * k.val = k.val; omega

/-- Row (j 1) of the weight block of an array B is row (j 1) of B: the one block is the whole matrix, and the output
    block spans all 32 columns, so the output column in the table is (j 1). -/
theorem weight_block_entry (B : Cert.Spec.WS.Idx → EReal) (t : Fin cfg0.N) (j : S5000x32.Idx) (k : Fin 32) :
    ((cfg0.win 1).blk t).view.read (Elt Ideal) B (ix2 (j 1) k) = B (ix2 ((((cfg0.win 2).blk t).view.emb j) 1) k) := by
  obtain ⟨e0, e1, e2, e3, e4, e5⟩ := block_positions t
  show B (((cfg0.win 1).blk t).view.emb (ix2 (j 1) k)) = B (ix2 ((((cfg0.win 2).blk t).view.emb j) 1) k)
  refine congrArg B (funext fun a => Fin.ext ?_)
  match a with
  | ⟨0, _⟩ => show win0_1.index t (0 : Fin 2) * 32 + 1 * (j 1).val = win0_2.index t (1 : Fin 2) * 32 + 1 * (j 1).val; omega
  | ⟨1, _⟩ => show win0_1.index t (1 : Fin 2) * 32 + 1 * k.val = k.val; omega

/-- What the body leaves in the output buffer from block t of A and the block of B, written back, is block t of the
    projection of A by B. -/
theorem body_block (A : Cert.Spec.TblS.Idx → EReal) (B : Cert.Spec.WS.Idx → EReal) (t : Fin cfg0.N) :
    (cfg0.win 2).cut (grid0.coords t)
        (out0_2 (F := Ideal) (((cfg0.win 0).blk t).view.read (Elt Ideal) A) (((cfg0.win 1).blk t).view.read (Elt Ideal) B))
      = ((cfg0.win 2).blk t).view.read (Elt Ideal) (Cert.Spec.proj A B) := by
  unfold out0_2
  rw [View.canon_unit_zero zero_offsets]
  simp only [View.ld_unit_zero (S := S5000x32) zero_offsets, View.ld_unit_zero (S := S32x32) zero_offsets]
  funext j
  exact stored_eq_proj (((cfg0.win 0).blk t).view.read (Elt Ideal) A) (((cfg0.win 1).blk t).view.read (Elt Ideal) B) A B
    ((cfg0.win 2).xinj (grid0.coords t) j) (j 0) (j 1)
    (funext fun a => match a with | ⟨0, _⟩ => rfl | ⟨1, _⟩ => rfl)
    (((cfg0.win 2).blk t).view.emb j) (row_block_entry A t j) (weight_block_entry B t j)

/-! ## The region's arrays -/

variable (m : (ℓ : Loc nD τ sig) → Buf (Elt Ideal) ℓ)

/-- The node table as the region finds it, and the weights: the contents of the two input windows' arrays. Sealed
    definitions: what the host operations before the region put there is read elsewhere. -/
def nodeTable (c : Dev nD) : Cert.Spec.TblS.Idx → EReal := V m c (Pipeline.arrRef spec0 0)
def weights (c : Dev nD) : Cert.Spec.WS.Idx → EReal := V m c (Pipeline.arrRef spec0 1)

/-- What point t writes back is block t of the projection of the node table by the weights. -/
theorem written_back (c : Dev nD) (t : Fin cfg0.N) :
    (dats m 0 c).flushed 2 t = ((cfg0.win 2).blk t).view.read (Elt Ideal) (Cert.Spec.proj (nodeTable m c) (weights m c)) := by
  show (cfg0.win 2).cut (grid0.coords t) ((dats m 0 c).after 2 t) = _
  rw [after0_2]
  unfold iblk
  exact body_block (nodeTable m c) (weights m c) t

/-- The projected table after the region: the projection of the node table the region found, by the weights. -/
theorem table_after (c : Dev nD) :
    (dats m 0 c).arrAt 2 cfg0.N = Cert.Spec.proj (nodeTable m c) (weights m c) :=
  (dats m 0 c).arrAt_eq_of_cover 2 _ (fun t _ => written_back m c t) blocks_cover

end Cert.KernelIdeal.Block

end
-- ==== Proof.LibRowGather.lean ====
/-
  A gather of whole rows read at an index.  For an operand [N, C], start indices [R, 1] and a result [R, C] with
  dimension numbers offset_dims = [1], collapsed_slice_dims = [0], start_index_map = [0], index_vector_dim = 1 and
  slice sizes [1, C], the operand index that result index (e, j) reads is (row e, j): the row is the start index of
  edge e read signed and clamped into [0, N - 1], and it does not depend on the column; the column is kept.
-/
import Idealize.ShloMosaic.Lib.ValueIdx

noncomputable section

namespace Cert.LibRowGather

open Idealize.ShloMosaic Idealize.ShloMosaic.ValueIdx

/-- The dimension numbers of a gather of whole rows. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row of the operand that edge e reads: its start index, signed, clamped into [0, N - 1]. -/
def rowOf {N R w : Nat} (hN : 0 < N) (idx : IVec ⟨2, ![R, 1]⟩ w) (e : Fin R) : Fin N :=
  ⟨min (idx (ix2 e ⟨0, Nat.one_pos⟩)).toInt.toNat (N - 1), by omega⟩

/-- The operand index of result index j: the row of edge (j 0), the column (j 1). -/
theorem operandIdx_row {N R C w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (j : (⟨2, ![R, C]⟩ : Shape).Idx) :
    (rowDims N R C wf).operandIdx j idx = ix2 (rowOf hN idx (j 0)) (j 1) := by
  funext a
  refine Fin.ext ?_
  match a with
  | ⟨0, _⟩ =>
    show (rowDims N R C wf).start j idx 0 + (rowDims N R C wf).batchCoord j 0 + (rowDims N R C wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx j ⟨List.idxOf (0 : Fin 2) (rowDims N R C wf).startIndexMap,
        List.idxOf_lt_length_iff.2 (List.mem_singleton.mpr rfl)⟩ = ix2 (j 0) ⟨0, Nat.one_pos⟩ := by
      funext b; refine Fin.ext ?_
      match b with
      | ⟨0, _⟩ => rfl
      | ⟨1, _⟩ => rfl
    rw [hsi]
    rfl
  | ⟨1, _⟩ =>
    show (rowDims N R C wf).start j idx 1 + (rowDims N R C wf).batchCoord j 1 + (rowDims N R C wf).offCoord j 1 = (j 1).val
    rw [GatherDims.batchCoord_eq_zero _ _ _ List.not_mem_nil]
    unfold GatherDims.start
    rw [dif_neg (show ¬ (1 : Fin 2) ∈ (rowDims N R C wf).startIndexMap from fun h => Nat.one_ne_zero (congrArg Fin.val (List.mem_singleton.mp h)))]
    simp only [Nat.add_zero, Nat.zero_add]
    unfold GatherDims.offCoord
    rw [dif_pos (show (1 : Fin 2) ∈ (rowDims N R C wf).sKept from (GatherDims.mem_sKept _ _).mpr
      ⟨fun h => Nat.one_ne_zero (congrArg Fin.val (List.mem_singleton.mp h)), List.not_mem_nil⟩)]
    rfl

/-- A gather of whole rows read at an index: the operand at (row of the edge, the column). -/
theorem gather_row_apply {α : Type} {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (j : (⟨2, ![R, C]⟩ : Shape).Idx) :
    Host.gather (rowDims N R C wf) x idx j = x (ix2 (rowOf hN idx (j 0)) (j 1)) := by
  unfold Host.gather
  exact congrArg x (operandIdx_row hN wf idx j)

end Cert.LibRowGather

end
-- ==== Proof.KernelTail.lean ====
/-
  The kernel's result: the host operations after the region.

  After the region the program normalises the source and destination indices (a negative index has the table's
  height added), gathers the rows of the projected table at each, adds the two gathered arrays, and adds the bias
  broadcast along the edges.  A gather of whole rows picks, for edge e and column j, the entry (row e, j) of the
  table, with row e the start index read signed and clamped into the table; so with the projected table equal to the
  projection of the node table by the weights, the result is the table arrangement of the specification.
-/
import proofs.«129537_j27986006901490_2_alg».proof.Proof.KernelTable
import proofs.«129537_j27986006901490_2_alg».proof.Proof.LibRowGather
import Idealize.ShloMosaic.Lib.StableHlo.Run
import Idealize.ShloMosaic.Lib.Pipeline.Value
import Idealize.ShloMosaic.Lib.ValueIdx

set_option maxRecDepth 16384

noncomputable section

namespace Cert.KernelIdeal.Tail

open Cert.KernelIdeal Cert.KernelIdeal.Gen Idealize.ShloMosaic Idealize.ShloMosaic.TcCoe Idealize.SL.Sem
open Idealize.ShloMosaic.ValueIdx Idealize.ShloMosaic.Pipeline

open Idealize.ShloMosaic.StableHlo Cert.KernelIdeal.Block Cert.Spec Cert.LibRowGather

/-- The start indices of a row gather from an index array: a negative index has 50000 added, and the array is given
    a trailing unit axis. -/
def normIdx (a : IVec S1600000 32) : IVec S1600000x1 32 :=
  broadcastInDim S1600000x1 ![0] bcast_S1600000_S1600000x1_0
    (select (cmpi CmpIPredicate.slt a (broadcastInDim S1600000 ![] bcast_S_S1600000 (constantI S_ 32 0#32)))
      (addi a (broadcastInDim S1600000 ![] bcast_S_S1600000 (constantI S_ 32 50000#32))) a)

/-- The host operations after the region, as one function of the projected table, the two index arrays and the bias. -/
def tailOut (P : FVec Ideal S50000x32 .f32) (a1 a2 : IVec S1600000 32) (a4 : FVec Ideal S32 .f32) : FVec Ideal S1600000x32 .f32 :=
  addf
    (addf (Host.gather gather_S50000x32_S1600000x1_S1600000x32_1_0_n_n_0_1_132 P (normIdx a1))
      (Host.gather gather_S50000x32_S1600000x1_S1600000x32_1_0_n_n_0_1_132 P (normIdx a2)))
    (broadcastInDim S1600000x32 ![0, 1] bcast_S1x32_S1600000x32_0_1 (broadcastInDim S1x32 ![1] bcast_S32_S1x32_1 a4))

/-! ## The tail read at an index -/

/-- The program's gather is a gather of whole rows. -/
theorem gather_rows : gather_S50000x32_S1600000x1_S1600000x32_1_0_n_n_0_1_132
    = rowDims 50000 1600000 32 Facts₀.gather_S50000x32_S1600000x1_S1600000x32_1_0_n_n_0_1_132_wf := rfl

/-- The table row an edge reads through start indices idx. -/
abbrev row (idx : IVec S1600000x1 32) : Fin 1600000 → Fin 50000 := rowOf (N := 50000) (by decide) idx

theorem gather_apply (x : S50000x32.Idx → EReal) (idx : IVec S1600000x1 32) (j : S1600000x32.Idx) :
    Host.gather gather_S50000x32_S1600000x1_S1600000x32_1_0_n_n_0_1_132 x idx j = x (ix2 (row idx (j 0)) (j 1)) := by
  rw [gather_rows]
  exact gather_row_apply (by decide) Facts₀.gather_S50000x32_S1600000x1_S1600000x32_1_0_n_n_0_1_132_wf x idx j

/-- The bias broadcast along the edges, at (e, j), is the bias at j. -/
theorem bias_entry (a4 : FVec Ideal S32 .f32) (i : S1600000x32.Idx) :
    broadcastInDim S1600000x32 ![0, 1] bcast_S1x32_S1600000x32_0_1 (broadcastInDim S1x32 ![1] bcast_S32_S1x32_1 a4) i
      = a4 (ix1 (i 1)) := by
  rw [broadcastInDim_apply _ bcast_S1x32_S1600000x32_0_1 (broadcastInDim S1x32 ![1] bcast_S32_S1x32_1 a4) i
    (fun a => match a with | ⟨0, _⟩ => ⟨0, Nat.one_pos⟩ | ⟨1, _⟩ => ⟨(i 1).val, (i 1).isLt⟩) (fun a => match a with
      | ⟨0, _⟩ => by show 0 = if (1 : Nat) = 1 then 0 else (i 0).val; rw [if_pos rfl]
      | ⟨1, _⟩ => by show (i 1).val = if (32 : Nat) = 1 then 0 else (i 1).val; rw [if_neg (by decide)])]
  exact broadcastInDim_apply _ bcast_S32_S1x32_1 a4 _ (ix1 (i 1)) (fun a => match a with
    | ⟨0, _⟩ => by show (i 1).val = if (32 : Nat) = 1 then 0 else (i 1).val; rw [if_neg (by decide)])

/-- Over the projection of a node table h by weights W, the tail is the table arrangement of the specification. -/
theorem tailOut_proj (h : TblS.Idx → EReal) (W : WS.Idx → EReal) (a1 a2 : IVec S1600000 32) (a4 : FVec Ideal S32 .f32) :
    tailOut (proj h W) a1 a2 a4 = viaTable h W a4 (row (normIdx a1)) (row (normIdx a2)) := by
  funext i
  show Host.gather gather_S50000x32_S1600000x1_S1600000x32_1_0_n_n_0_1_132 (proj h W) (normIdx a1) i
      + Host.gather gather_S50000x32_S1600000x1_S1600000x32_1_0_n_n_0_1_132 (proj h W) (normIdx a2) i
      + broadcastInDim S1600000x32 ![0, 1] bcast_S1x32_S1600000x32_0_1 (broadcastInDim S1x32 ![1] bcast_S32_S1x32_1 a4) i = _
  rw [gather_apply, gather_apply, bias_entry]
  rfl

/-! ## The tail of the run -/

variable (m : (ℓ : Loc nD τ sig) → Buf (Elt Ideal) ℓ)

/-- The core's buffers after the region: the pipeline's arrays at what the region left, the rest as before it. -/
abbrev afterRegion (c : Dev nD) : Valuation τ sig (Elt Ideal) :=
  Pipeline.withArrays (cfgs 0).spec c (V0 m c) (fun w => (dats m 0 c).arrAt w (cfgs 0).N)

set_option maxHeartbeats 2000000 in
/-- The result buffer after the host tail is the tail's function of the buffers after the region. -/
theorem tail_read (c : Dev nD) :
    Pipeline.afterTail₀ cfgs (dats m) 0 (V0 m) [hostOps1] c main_v40
      = tailOut (afterRegion m c (Proc.devRef .tc main_v22)) (afterRegion m c (Proc.devRef .tc main_arg1))
          (afterRegion m c (Proc.devRef .tc main_arg2)) (afterRegion m c (Proc.devRef .tc main_arg4)) := by
  unfold Pipeline.afterTail₀
  show StableHlo.after hostOps1 _ (Proc.devRef .tc main_v40) = _
  after_results_simp
  rfl

/-- THE KERNEL'S RESULT: the table arrangement over the node table the region found, the weights, the bias as
    launched, and the rows the two index arrays name. -/
theorem result_eq (c : Dev nD) :
    Pipeline.afterTail₀ cfgs (dats m) 0 (V0 m) [hostOps1] c main_v40
      = viaTable (nodeTable m c) (weights m c) (m ((c : Thread nD τ).loc main_arg4))
          (row (normIdx (m ((c : Thread nD τ).loc main_arg1)))) (row (normIdx (m ((c : Thread nD τ).loc main_arg2)))) := by
  have hP : afterRegion m c (Proc.devRef .tc main_v22) = proj (nodeTable m c) (weights m c) :=
    (Pipeline.withArrays_arr spec0 launch0.win.arr_inj c _ _ 2).trans (table_after m c)
  have h1 : afterRegion m c (Proc.devRef .tc main_arg1) = m ((c : Thread nD τ).loc main_arg1) :=
    (Pipeline.withArrays_of_ne _ c (V0 m c) _ main_arg1 (by exact (by decide : ∀ w, Pipeline.arrRef spec0 w ≠ main_arg1))).trans (V_main_arg1 m c)
  have h2 : afterRegion m c (Proc.devRef .tc main_arg2) = m ((c : Thread nD τ).loc main_arg2) :=
    (Pipeline.withArrays_of_ne _ c (V0 m c) _ main_arg2 (by exact (by decide : ∀ w, Pipeline.arrRef spec0 w ≠ main_arg2))).trans (V_main_arg2 m c)
  have h4 : afterRegion m c (Proc.devRef .tc main_arg4) = m ((c : Thread nD τ).loc main_arg4) :=
    (Pipeline.withArrays_of_ne _ c (V0 m c) _ main_arg4 (by exact (by decide : ∀ w, Pipeline.arrRef spec0 w ≠ main_arg4))).trans (V_main_arg4 m c)
  rw [tail_read, hP, h1, h2, h4, tailOut_proj]

end Cert.KernelIdeal.Tail

end
-- ==== Proof.EdgeValue.lean ====
/-
  The reference's result, index by index.

  With h the node table, W the weights, b the bias, and the source and destination indices normalised (a negative
  index has the table's height added) and read by the row gathers (signed, clamped into the table), entry (e, j) of the
  reference's result is  sum_k (1/2 * (h(rs e, k) + h(rd e, k))) * W(j, k) + b(j):  the gathers pick rows, the halved
  sum is elementwise, the product with the transposed weights is a sum over the 32 columns, and the bias is broadcast
  along the edges.
-/
import proofs.«129537_j27986006901490_2_alg».proof.Proof.Gen.ReferenceIdeal.Read
import proofs.«129537_j27986006901490_2_alg».proof.Proof.Spec
import proofs.«129537_j27986006901490_2_alg».proof.Proof.LibRowGather

noncomputable section

namespace Cert.ReferenceIdeal.EdgeValue

open Cert.ReferenceIdeal Cert.ReferenceIdeal.Gen Cert.ReferenceIdeal.Read Idealize.ShloMosaic Idealize.ShloMosaic.ValueIdx
open Cert.Spec Cert.LibRowGather

/-- The program's gather is a gather of whole rows. -/
theorem gather_rows : gather_S50000x32_S1600000x1_S1600000x32_1_0_n_n_0_1_132
    = rowDims 50000 1600000 32 Facts₀.gather_S50000x32_S1600000x1_S1600000x32_1_0_n_n_0_1_132_wf := rfl

/-- The table row an edge reads through start indices idx. -/
abbrev row (idx : IVec S1600000x1 32) : Fin 1600000 → Fin 50000 := rowOf (N := 50000) (by decide) idx

/-- The program's gather read at an index. -/
theorem gather_apply (x : S50000x32.Idx → EReal) (idx : IVec S1600000x1 32) (j : S1600000x32.Idx) :
    Host.gather gather_S50000x32_S1600000x1_S1600000x32_1_0_n_n_0_1_132 x idx j = x (ix2 (row idx (j 0)) (j 1)) := by
  rw [gather_rows]
  exact gather_row_apply (by decide) Facts₀.gather_S50000x32_S1600000x1_S1600000x32_1_0_n_n_0_1_132_wf x idx j

variable (x0 : (⟨S1600000x32, .f32⟩ : BufTy).Contents (Elt Ideal)) (x1 x2 : (⟨S1600000, .i32⟩ : BufTy).Contents (Elt Ideal))
  (x3 : (⟨S32x32, .f32⟩ : BufTy).Contents (Elt Ideal)) (x4 : (⟨S32, .f32⟩ : BufTy).Contents (Elt Ideal))

/-- The halved sum of the two endpoint rows, at row e and column k. -/
theorem halved_rows (i : S1600000x32.Idx) (k : Fin 32) :
    val_main_v38 (F := Ideal) x0 x1 x2 (lidx_main_v40 i k)
      = half * (val_main_v21 (F := Ideal) x0 x1 x2 (ix2 (row (val_main_v27 (F := Ideal) x1) (i 0)) k)
          + val_main_v21 (F := Ideal) x0 x1 x2 (ix2 (row (val_main_v34 (F := Ideal) x2) (i 0)) k)) := by
  rw [val_main_v38_apply, val_main_v37_apply, val_main_cst_9_apply, val_main_v36_apply]
  unfold val_main_v28 val_main_v35
  rw [gather_apply, gather_apply]
  rfl

/-- The transposed weights at (k, j) are the weights at (j, k). -/
theorem weights_entry (i : S1600000x32.Idx) (k : Fin 32) :
    val_main_v39 (F := Ideal) x3 (ridx_main_v40 i k) = x3 (ix2 (i 1) k) := by
  rw [val_main_v39_apply]
  exact congrArg x3 (funext fun a => Fin.ext (by match a with | ⟨0, _⟩ => rfl | ⟨1, _⟩ => rfl))

/-- The bias broadcast along the edges. -/
theorem bias_entry (i : S1600000x32.Idx) : val_main_v42 (F := Ideal) x4 i = x4 (ix1 (i 1)) := by
  rw [val_main_v42_apply, val_main_v41_apply]
  exact congrArg x4 (funext fun a => Fin.ext (by match a with | ⟨0, _⟩ => rfl))

/-- THE REFERENCE'S RESULT is the edge arrangement of the specification over its own node table. -/
theorem result_eq : val_main_v43 (F := Ideal) x0 x1 x2 x3 x4
    = viaEdges (val_main_v21 (F := Ideal) x0 x1 x2) x3 x4 (row (val_main_v27 (F := Ideal) x1)) (row (val_main_v34 (F := Ideal) x2)) := by
  funext i
  rw [val_main_v43_apply, val_main_v40_apply, bias_entry]
  simp only [halved_rows, weights_entry]
  rfl

end Cert.ReferenceIdeal.EdgeValue

end
-- ==== Proof.NodeTable.lean ====
/-
  The node table is real when the edge features are.

  Both programs build the node table h from the edge features x and the two index arrays the same way: the in-degree
  is a scatter of ones onto zeros, the feature sums a scatter of x onto zeros, the mean their quotient by
  max(in-degree, 1), the messages a gather of the means' rows, and h a scatter of the messages onto zeros.  On the
  extended reals an accumulating scatter is the operand entry plus a finite sum of update entries, so it keeps real
  numbers real whatever the indices are; max(r, 1) is a real that is at least 1, so the quotient by it is a real; and
  a gather only picks entries.  Hence every entry of h is a real number as soon as every entry of x is.
-/
import proofs.«129537_j27986006901490_2_alg».proof.Proof.Gen.ReferenceIdeal.Read
import proofs.«129537_j27986006901490_2_alg».proof.Proof.Spec
import Idealize.ShloMosaic.Lib.IdealHost

noncomputable section

namespace Cert.ReferenceIdeal.NodeTable

open Cert.ReferenceIdeal Cert.ReferenceIdeal.Gen Cert.ReferenceIdeal.Read Idealize.ShloMosaic Cert.Spec

/-- An accumulating scatter of reals onto reals holds reals: each entry is the operand's plus a finite sum of updates. -/
theorem scatterAdd_real {s si su : Shape} {w : Nat} (d : ScatterDims s si su) (x : FVec Ideal s .f32) (idx : IVec si w)
    (upd : FVec Ideal su .f32) (hx : ∀ i, IsReal (x i)) (hu : ∀ j, IsReal (upd j)) (i : s.Idx) :
    IsReal (Host.scatterAdd d x idx upd i) := by
  unfold Host.scatterAdd
  rw [Ideal.hostScatterAdd_def]
  unfold Ideal.hostScatterAdd
  exact (hx i).add (IsReal.sum _ _ fun j _ => hu j)

theorem zero_pattern : FloatOps.ofBits (F := Ideal) .f32 0x00000000#32 = ((0 : ℝ) : EReal) := by
  rw [Ideal.ofBits_def, Ideal.ofBits_zero_f32]; rfl
theorem one_pattern : FloatOps.ofBits (F := Ideal) .f32 0x3F800000#32 = ((1 : ℝ) : EReal) := by
  rw [Ideal.ofBits_def, Ideal.ofBits_one_f32]; rfl

variable (x0 : (⟨S1600000x32, .f32⟩ : BufTy).Contents (Elt Ideal)) (x1 x2 : (⟨S1600000, .i32⟩ : BufTy).Contents (Elt Ideal))

/-- The in-degree of every node is a real. -/
theorem degree_real (i : S50000.Idx) : IsReal (val_main_v3 (F := Ideal) x2 i) := by
  unfold val_main_v3
  refine scatterAdd_real _ _ _ _ (fun i => ?_) (fun j => ?_) i
  · rw [val_main_v1_apply, val_main_cst_0_apply, zero_pattern]; exact IsReal.coe 0
  · rw [val_main_v0_apply, val_main_cst_apply, one_pattern]; exact IsReal.coe 1

/-- The divisor max(in-degree, 1) is a real that is not zero. -/
theorem divisor_real (i : S50000.Idx) : ∃ b : ℝ, val_main_v8 (F := Ideal) x2 i = (b : EReal) ∧ b ≠ 0 := by
  obtain ⟨r, hr⟩ := degree_real x2 i
  refine ⟨max r 1, ?_, (lt_of_lt_of_le one_pos (le_max_right r 1)).ne'⟩
  rw [val_main_v8_apply, Ideal.maximumf_def, hr, val_main_v7_apply, val_main_cst_2_apply, one_pattern]
  exact (EReal.coe_strictMono.monotone.map_max).symm

/-- The feature sums are real when the features are. -/
theorem sums_real (hx : ∀ i, IsReal (x0 i)) (i : S50000x32.Idx) : IsReal (val_main_v6 (F := Ideal) x0 x2 i) := by
  unfold val_main_v6
  refine scatterAdd_real _ _ _ _ (fun i => ?_) hx i
  rw [val_main_v4_apply, val_main_cst_1_apply, zero_pattern]; exact IsReal.coe 0

/-- The means are real when the features are. -/
theorem means_real (hx : ∀ i, IsReal (x0 i)) (i : S50000x32.Idx) : IsReal (val_main_v11 (F := Ideal) x0 x2 i) := by
  rw [val_main_v11_apply, Ideal.hostDivf_def, val_main_v10_apply, val_main_v9_apply]
  obtain ⟨b, hb, hb0⟩ := divisor_real x2 (idx_main_v9 (idx_main_v10 i))
  exact (sums_real x0 x2 hx i).div hb hb0

/-- The messages (rows of the means gathered by source) are real when the features are. -/
theorem messages_real (hx : ∀ i, IsReal (x0 i)) (j : S1600000x32.Idx) : IsReal (val_main_v18 (F := Ideal) x0 x1 x2 j) := by
  unfold val_main_v18 Host.gather
  exact means_real x0 x2 hx _

/-- THE NODE TABLE is real when the features are. -/
theorem table_real (hx : ∀ i, IsReal (x0 i)) (n : S50000x32.Idx) : IsReal (val_main_v21 (F := Ideal) x0 x1 x2 n) := by
  unfold val_main_v21
  refine scatterAdd_real _ _ _ _ (fun i => ?_) (messages_real x0 x1 x2 hx) n
  rw [val_main_v19_apply, val_main_cst_4_apply, zero_pattern]; exact IsReal.coe 0

end Cert.ReferenceIdeal.NodeTable

end
-- ==== Proof.PreReal.lean ====
/-
  The precondition read back: every edge feature and every weight is a real number.

  The precondition is the conjunction of three tests "all entries of |x| are below +infinity", for the features, the
  weights and the bias.  On the extended reals |x| = max(x, -x) is below +infinity exactly when x is neither
  infinity, that is, when x is a real number.
-/
import proofs.«129537_j27986006901490_2_alg».proof.Pre_finite_inputs
import proofs.«129537_j27986006901490_2_alg».proof.Proof.Gen.Pre_finite_inputs
import proofs.«129537_j27986006901490_2_alg».proof.Proof.Spec
import Idealize.ShloMosaic.Lib.ReduceAll
import Idealize.ShloMosaic.Lib.ValueIdx
import Idealize.ShloMosaic.PureOps.Ideal.Laws

noncomputable section

namespace Cert.Pre_finite_inputs.Reals

open Cert.Pre_finite_inputs Cert.Pre_finite_inputs.Gen Idealize.ShloMosaic Idealize.ShloMosaic.ValueIdx Cert.Spec

instance : Subsingleton S_.Idx := ⟨fun a b => funext fun d => d.elim0⟩

theorem bool_word {b : Bool} : BitVec.ofBool b = 1#1 ↔ b = true := by cases b <;> decide

theorem inf_pattern : Ideal.ofBits .f32 0x7F800000#32 = (⊤ : EReal) := by simp [Ideal.ofBits, Ideal.ieee]

/-- An extended real whose absolute value tests below +infinity is a real number. -/
theorem real_of_test (x : EReal)
    (h : FloatOps.cmpf (F := Ideal) (φ := .f32) CmpFPredicate.olt (FloatOps.hostAbsf x) (FloatOps.ofBits .f32 0x7F800000#32) = 1#1) :
    IsReal x := by
  change Ideal.cmp CmpFPredicate.olt (max x (-x)) (Ideal.ofBits .f32 0x7F800000#32) = 1#1 at h
  rw [inf_pattern] at h
  unfold Ideal.cmp at h
  have hlt : max x (-x) < ⊤ := of_decide_eq_true (bool_word.mp h)
  induction x using EReal.rec with
  | bot => exact absurd hlt (by simp)
  | coe r => exact ⟨r, rfl⟩
  | top => exact absurd hlt (by simp)

variable (x0 : FVec Ideal S1600000x32 .f32) (x1 x2 : IVec S1600000 32) (x3 : FVec Ideal S32x32 .f32) (x4 : FVec Ideal S32 .f32)

/-- Under the precondition every edge feature and every weight is a real number. -/
theorem reals_of_pre (h : fn (F := Ideal) x0 x1 x2 x3 x4 = fun _ => 1#1) :
    (∀ i, IsReal (x0 i)) ∧ (∀ i, IsReal (x3 i)) := by
  have h0 := congrFun h ix0
  dsimp only [fn] at h0
  obtain ⟨h01, -⟩ := IntOp.andi_eq_one.mp h0
  obtain ⟨hx, hw⟩ := IntOp.andi_eq_one.mp h01
  exact ⟨fun i => real_of_test _ (Host.reduce_andi_all _ _ _ _ ix0 hx i),
    fun i => real_of_test _ (Host.reduce_andi_all _ _ _ _ ix0 hw i)⟩

end Cert.Pre_finite_inputs.Reals

end
-- ==== Proof.Bridge.lean ====
/-
  The two programs compute one function.

  Before the kernel's region both programs run the same host operations on the same arguments, so the node table the
  region finds is the reference's node table; both normalise the two index arrays the same way, so their gathers read
  the same rows.  The kernel's result is then the table arrangement of the specification and the reference's the edge
  arrangement, over one node table, the weights, the bias and one pair of row maps.  Under the precondition the edge
  features and the weights are real numbers, hence so is the node table, and the projection's linearity makes the two
  arrangements equal.
-/
import proofs.«129537_j27986006901490_2_alg».proof.Defs
import proofs.«129537_j27986006901490_2_alg».proof.Proof.KernelTail
import proofs.«129537_j27986006901490_2_alg».proof.Proof.EdgeValue
import proofs.«129537_j27986006901490_2_alg».proof.Proof.NodeTable
import proofs.«129537_j27986006901490_2_alg».proof.Proof.PreReal
import proofs.«129537_j27986006901490_2_alg».proof.Proof.Gen.ReferenceIdeal.Run
import Idealize.ShloMosaic.Lib.StableHlo.Run

set_option maxRecDepth 16384

noncomputable section

namespace Cert.Bridge

open Idealize.ShloMosaic Idealize.ShloMosaic.TcCoe Idealize.SL.Sem Idealize.ShloMosaic.StableHlo Cert.Spec

/-- Both programs normalise the source indices the same way, -/
theorem normIdx_src (a : IVec Cert.KernelIdeal.S1600000 32) :
    Cert.KernelIdeal.Tail.normIdx a = Cert.ReferenceIdeal.Read.val_main_v27 (F := Ideal) a := rfl
/-- and the destination indices. -/
theorem normIdx_dst (a : IVec Cert.KernelIdeal.S1600000 32) :
    Cert.KernelIdeal.Tail.normIdx a = Cert.ReferenceIdeal.Read.val_main_v34 (F := Ideal) a := rfl

variable (m : (ℓ : Loc Cert.KernelIdeal.nD Cert.KernelIdeal.τ Cert.KernelIdeal.sig) → Buf (Elt Ideal) ℓ)

set_option maxHeartbeats 2000000 in
/-- The node table the kernel's region finds is the reference's node table of the same arguments: the host operations
    before the region are the reference's first operations. -/
theorem nodeTable_eq (c : Dev Cert.KernelIdeal.nD) :
    Cert.KernelIdeal.Block.nodeTable m c
      = Cert.ReferenceIdeal.Read.val_main_v21 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2)) := by
  unfold Cert.KernelIdeal.Block.nodeTable
  show StableHlo.after Cert.KernelIdeal.Gen.hostOps0 (fun b => m (c, b)) (Proc.devRef .tc Cert.KernelIdeal.main_v21) = _
  after_results_simp
  rfl

/-- The weights the region finds are the weights as launched. -/
theorem weights_eq (c : Dev Cert.KernelIdeal.nD) :
    Cert.KernelIdeal.Block.weights m c = m ((c : Thread Cert.KernelIdeal.nD Cert.KernelIdeal.τ).loc Cert.KernelIdeal.main_arg3) := by
  unfold Cert.KernelIdeal.Block.weights
  exact Cert.KernelIdeal.Gen.V_main_arg3 m c

/-- The common result: the table arrangement over what the kernel's region finds. -/
def result (c : Dev Cert.KernelIdeal.nD) : Cert.Spec.EdgeS.Idx → EReal :=
  viaTable (Cert.KernelIdeal.Block.nodeTable m c) (Cert.KernelIdeal.Block.weights m c)
    (m ((c : Thread Cert.KernelIdeal.nD Cert.KernelIdeal.τ).loc Cert.KernelIdeal.main_arg4))
    (Cert.KernelIdeal.Tail.row (Cert.KernelIdeal.Tail.normIdx (m ((c : Thread Cert.KernelIdeal.nD Cert.KernelIdeal.τ).loc Cert.KernelIdeal.main_arg1))))
    (Cert.KernelIdeal.Tail.row (Cert.KernelIdeal.Tail.normIdx (m ((c : Thread Cert.KernelIdeal.nD Cert.KernelIdeal.τ).loc Cert.KernelIdeal.main_arg2))))

/-- Under the precondition the reference's result of the same arguments is the common result. -/
theorem reference_eq (c : Dev Cert.KernelIdeal.nD)
    (hpre : Cert.Pre_finite_inputs.fn (F := Ideal)
      (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4)) = fun _ => 1#1) :
    Cert.ReferenceIdeal.Read.val_main_v43 (F := Ideal)
      (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4)) = result m c := by
  obtain ⟨hx, hw⟩ := Cert.Pre_finite_inputs.Reals.reals_of_pre _ _ _ _ _ hpre
  rw [Cert.ReferenceIdeal.EdgeValue.result_eq]
  unfold result
  rw [nodeTable_eq m c, weights_eq m c]
  exact (viaTable_eq_viaEdges _ _ _ _ _ (Cert.ReferenceIdeal.NodeTable.table_real _ _ _ hx) hw).symm

/-! ## The claim -/

theorem algebraic : Cert.algebraic_KernelIdeal_ReferenceIdeal := by
  intro m ρ m' ρ' hpre hagree
  refine ⟨fun c => result m c, ?_, ?_⟩
  · refine (θ_run Cert.KernelIdeal.defs _ _).mono (fun r h c => ⟨?_, ?_, ?_, ?_, ?_, ?_⟩) (Cert.KernelIdeal.Gen.run_main m ρ)
    · exact ((h c).2 Cert.KernelIdeal.main_v40 (Pipeline.mem_restRefs_of Cert.KernelIdeal.main_v40 (by decide) (by decide))).trans
        (Cert.KernelIdeal.Tail.result_eq m c)
    · exact ((h c).2 Cert.KernelIdeal.main_arg0 (Pipeline.mem_restRefs_of Cert.KernelIdeal.main_arg0 (by decide) (by decide))).trans
        (Cert.KernelIdeal.Gen.W_main_arg0 m (Cert.KernelIdeal.Gen.dats m) c)
    · exact ((h c).2 Cert.KernelIdeal.main_arg1 (Pipeline.mem_restRefs_of Cert.KernelIdeal.main_arg1 (by decide) (by decide))).trans
        (Cert.KernelIdeal.Gen.W_main_arg1 m (Cert.KernelIdeal.Gen.dats m) c)
    · exact ((h c).2 Cert.KernelIdeal.main_arg2 (Pipeline.mem_restRefs_of Cert.KernelIdeal.main_arg2 (by decide) (by decide))).trans
        (Cert.KernelIdeal.Gen.W_main_arg2 m (Cert.KernelIdeal.Gen.dats m) c)
    · exact ((h c).1 1).trans (((Cert.KernelIdeal.Gen.dats m 0 c).arrAt_in 1 rfl _).trans
        ((Cert.KernelIdeal.Gen.A_eq m c 1).trans (Cert.KernelIdeal.Gen.V_main_arg3 m c)))
    · exact ((h c).2 Cert.KernelIdeal.main_arg4 (Pipeline.mem_restRefs_of Cert.KernelIdeal.main_arg4 (by decide) (by decide))).trans
        (Cert.KernelIdeal.Gen.W_main_arg4 m (Cert.KernelIdeal.Gen.dats m) c)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v43_eq, (hagree c).1, (hagree c).2.1, (hagree c).2.2.1, (hagree c).2.2.2.1, (hagree c).2.2.2.2]
    exact reference_eq m c (hpre c)

end Cert.Bridge

end
-- ==== Proof.lean ====
/-
  The certificate of the edge projection: a kernel that projects the node table once (half its product with the
  transposed weights, block by block over ten row blocks) and then reads the projected rows of each edge's two
  endpoints, against a reference that halves the sum of the two endpoint rows of the node table and projects every edge
  row.  Both build the node table from the edge features by the same scatters and gathers.  The three frames are the
  generated ones (the reference's is its run with the result dropped); nothing was rewritten by the idealization, so
  that conjunct is trivial; the two idealized programs agree because the projection is linear and, under the
  precondition, every number it meets is real (Proof/Bridge.lean).
-/
import proofs.«129537_j27986006901490_2_alg».proof.Defs
import proofs.«129537_j27986006901490_2_alg».proof.Proof.Gen.Kernel
import proofs.«129537_j27986006901490_2_alg».proof.Proof.Gen.Kernel.Skeleton
import proofs.«129537_j27986006901490_2_alg».proof.Proof.Gen.Kernel.Launch
import proofs.«129537_j27986006901490_2_alg».proof.Proof.Gen.Kernel.Points
import proofs.«129537_j27986006901490_2_alg».proof.Proof.Gen.Kernel.Frame
import proofs.«129537_j27986006901490_2_alg».proof.Proof.Gen.KernelIdeal
import proofs.«129537_j27986006901490_2_alg».proof.Proof.Gen.KernelIdeal.Skeleton
import proofs.«129537_j27986006901490_2_alg».proof.Proof.Gen.KernelIdeal.Launch
import proofs.«129537_j27986006901490_2_alg».proof.Proof.Gen.KernelIdeal.Points
import proofs.«129537_j27986006901490_2_alg».proof.Proof.Gen.KernelIdeal.Frame
import proofs.«129537_j27986006901490_2_alg».proof.Proof.Gen.ReferenceIdeal
import proofs.«129537_j27986006901490_2_alg».proof.Proof.Gen.Pre_finite_inputs
import proofs.«129537_j27986006901490_2_alg».proof.Proof.Gen.ReferenceIdeal.Run
import proofs.«129537_j27986006901490_2_alg».proof.Proof.Gen.ReferenceIdeal.Read
import proofs.«129537_j27986006901490_2_alg».proof.Proof.Bridge
import Idealize.ShloMosaic.Adequacy
import Idealize.ShloMosaic.Init

noncomputable section

namespace Cert.Proof

open Idealize.ShloMosaic Idealize.SL.Sem Cert.Kernel

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_reference, trivial, Cert.Bridge.algebraic⟩

end Cert.Proof

end
